-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x4096 : Shape := ⟨2, ![4096, 4096]⟩
abbrev S128x64 : Shape := ⟨2, ![128, 64]⟩
abbrev S64x64 : Shape := ⟨2, ![64, 64]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S128x64 : S_.BroadcastsInDim S128x64 (![] : Fin 0 → Fin S128x64.rank)
  reducesTo_S128x64_S_d0_1 : S128x64.ReducesTo [0, 1] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  main_v18

def fn {F : FTy → Type} [FloatOps F] (main_arg0 : FVec F S4096x128 .f32) (main_arg1 : FVec F S4096x4096 .f32) (main_arg2 : FVec F S128x64 .f32) (main_arg3 : FVec F S64x64 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_v13 main_v16
-- ==== Kernel.lean ====
abbrev S4096x128 : Shape := ⟨2, ![4096, 128]⟩
abbrev S4096x4096 : Shape := ⟨2, ![4096, 4096]⟩
abbrev S128x64 : Shape := ⟨2, ![128, 64]⟩
abbrev S64x64 : Shape := ⟨2, ![64, 64]⟩
abbrev S_ : Shape := ⟨0, ![]⟩
abbrev S128x128 : Shape := ⟨2, ![128, 128]⟩
abbrev S64x72 : Shape := ⟨2, ![64, 72]⟩
abbrev S4096x64 : Shape := ⟨2, ![4096, 64]⟩
abbrev S512x4096 : Shape := ⟨2, ![512, 4096]⟩
abbrev S72x4096 : Shape := ⟨2, ![72, 4096]⟩
abbrev S512x128 : Shape := ⟨2, ![512, 128]⟩
abbrev S512x64 : Shape := ⟨2, ![512, 64]⟩
abbrev S512x1 : Shape := ⟨2, ![512, 1]⟩
abbrev S512x72 : Shape := ⟨2, ![512, 72]⟩
abbrev S64x4096 : Shape := ⟨2, ![64, 4096]⟩
abbrev S1x4096 : Shape := ⟨2, ![1, 4096]⟩

abbrev nBuf : Space → Nat
  | .hbm => 11
  | .vmem => 8
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128x64, .f32⟩
  | .hbm, ⟨3, _⟩ => ⟨S64x64, .f32⟩
  | .hbm, ⟨4, _⟩ => ⟨S_, .i32⟩
  | .hbm, ⟨5, _⟩ => ⟨S_, .f32⟩
  | .hbm, ⟨6, _⟩ => ⟨S128x128, .f32⟩
  | .hbm, ⟨7, _⟩ => ⟨S_, .i32⟩
  | .hbm, ⟨8, _⟩ => ⟨S_, .f32⟩
  | .hbm, ⟨9, _⟩ => ⟨S64x72, .f32⟩
  | .hbm, ⟨10, _⟩ => ⟨S4096x64, .f32⟩
  | .local _ .vmem, ⟨0, _⟩ => ⟨S4096x128, .f32⟩
  | .local _ .vmem, ⟨1, _⟩ => ⟨S128x128, .f32⟩
  | .local _ .vmem, ⟨2, _⟩ => ⟨S64x72, .f32⟩
  | .local _ .vmem, ⟨3, _⟩ => ⟨S512x4096, .f32⟩
  | .local _ .vmem, ⟨4, _⟩ => ⟨S512x4096, .f32⟩
  | .local _ .vmem, ⟨5, _⟩ => ⟨S4096x64, .f32⟩
  | .local _ .vmem, ⟨6, _⟩ => ⟨S4096x128, .bf16⟩
  | .local _ .vmem, ⟨7, _⟩ => ⟨S72x4096, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5

abbrev nD : Nat := 1
abbrev τ : Topo := Topo.v7x

variable {F : FTy → Type} [FloatOps F]

abbrev grid0 : Pipeline.Grid := ⟨1, ![8], ![false]⟩

def k0_cond4 (i : grid0.Coords) : BitVec 1 :=
  let arg0 : BitVec 32 := BitVec.ofNat 32 (i 0).val
  let c7_i32 : BitVec 32 := 7#32
  let v30 : BitVec 1 := Scalar.cmpi .eq arg0 c7_i32
  let v31 : BitVec 32 := Scalar.extui v30
  let c0_i32_14 : BitVec 32 := 0#32
  let v32 : BitVec 1 := Scalar.cmpi .ne v31 c0_i32_14
  v32

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x72 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  pads_S128x64_S128x128_000_0640 : S128x64.Pads (![0, 0] : Fin 2 → Nat) ![0, 64] ![0, 0] S128x128
  h_S_ : 0 < S_.numel
  pads_S64x64_S64x72_000_080 : S64x64.Pads (![0, 0] : Fin 2 → Nat) ![0, 8] ![0, 0] S64x72
  inb_S4096x128_S4096x128_0_0 : ∀ a, (![0, 0] : Fin 2 → Nat) a + S4096x128.size a ≤ S4096x128.size a
  h_S4096x128 : 0 < S4096x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  iota_S4096x128_d1_w32 : S4096x128.Iotas .tc 32 [1]
  bitsLt_bf16_f32 : FTy.bits .bf16 < FTy.bits .f32
  shapeCasts_S4096x128_S4096x128 : S4096x128.ShapeCasts S4096x128
  packedbf16_S4096x128_S4096x128_0_0 : (Rect.unit (s := S4096x128) ![0, 0] S4096x128.size inb_S4096x128_S4096x128_0_0).PackedRows (EltTy.packing .bf16)
  inb_S512x4096_S512x4096_0_0 : ∀ a, (![0, 0] : Fin 2 → Nat) a + S512x4096.size a ≤ S512x4096.size a
  h_S512x4096 : 0 < S512x4096.numel
  slices_S512x128_o0_0_S512x64 : S512x128.Slices ![0, 0] S512x64
  slices_S512x128_o0_64_S512x1 : S512x128.Slices ![0, 64] S512x1
  broadcasts_S512x1_S512x64 : S512x1.Broadcasts S512x64
  inb_S64x72_S64x72_0_0 : ∀ a, (![0, 0] : Fin 2 → Nat) a + S64x72.size a ≤ S64x72.size a
  h_S64x72 : 0 < S64x72.numel
  shapeCasts_S64x72_S64x72 : S64x72.ShapeCasts S64x72
  iota_S512x72_d1_w32 : S512x72.Iotas .tc 32 [1]
  inb_S72x4096_S72x4096_0_0 : ∀ a, (![0, 0] : Fin 2 → Nat) a + S72x4096.size a ≤ S72x4096.size a
  h_S72x4096 : 0 < S72x4096.numel
  shapeCasts_S72x4096_S72x4096 : S72x4096.ShapeCasts S72x4096
  slices_S72x4096_o0_0_S64x4096 : S72x4096.Slices ![0, 0] S64x4096
  slices_S72x4096_o64_0_S1x4096 : S72x4096.Slices ![64, 0] S1x4096
  broadcasts_S1x4096_S64x4096 : S1x4096.Broadcasts S64x4096
  transposes_S64x4096_p1_0_S4096x64 : S64x4096.Transposes [1, 0] S4096x64
  inb_S4096x64_S4096x64_0_0 : ∀ a, (![0, 0] : Fin 2 → Nat) a + S4096x64.size a ≤ S4096x64.size a
  h_S4096x64 : 0 < S4096x64.numel
  dot_S4096x128_S128x128_S4096x128_1_0_0_1_n_n_wf : DotDims.WF S4096x128 S128x128 S4096x128 [1] [0] [0] [1] [] []
  dot_S512x4096_S4096x128_S512x128_1_0_0_1_n_n_wf : DotDims.WF S512x4096 S4096x128 S512x128 [1] [0] [0] [1] [] []
  dot_S512x64_S64x72_S512x72_1_0_0_1_n_n_wf : DotDims.WF S512x64 S64x72 S512x72 [1] [0] [0] [1] [] []
  dot_S512x72_S512x4096_S72x4096_0_0_1_1_n_n_wf : DotDims.WF S512x72 S512x4096 S72x4096 [0] [0] [1] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x128.size a
  hwx0_0 : ∀ i : grid0.Coords, EltTy.bits .f32 = 32 ∨ (Rect.block (s := S4096x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x72.size a ≤ S64x72.size a
  hwx0_2 : ∀ i : grid0.Coords, EltTy.bits .f32 = 32 ∨ (Rect.block (s := S64x72) S64x72.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S4096x4096.size a
  hwx0_3 : ∀ i : grid0.Coords, EltTy.bits .f32 = 32 ∨ (Rect.block (s := S4096x4096) S512x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x64.size a ≤ S4096x64.size a
  hwx0_4 : ∀ i : grid0.Coords, EltTy.bits .f32 = 32 ∨ (Rect.block (s := S4096x64) S4096x64.size (cc0_transform_4 i) (hinb0_4 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x64_S64x72_S512x72_1_0_0_1_n_n : DotDims S512x64 S64x72 S512x72 where
  lhsContracting := [1]
  rhsContracting := [0]
  lhsNonContracting := [0]
  rhsNonContracting := [1]
  lhsBatch := []
  rhsBatch := []
  wf := dot_S512x64_S64x72_S512x72_1_0_0_1_n_n_wf
def dot_S512x72_S512x4096_S72x4096_0_0_1_1_n_n : DotDims S512x72 S512x4096 S72x4096 where
  lhsContracting := [0]
  rhsContracting := [0]
  lhsNonContracting := [1]
  rhsNonContracting := [1]
  lhsBatch := []
  rhsBatch := []
  wf := dot_S512x72_S512x4096_S72x4096_0_0_1_1_n_n_wf

abbrev win0_0 : Pipeline.Window sig grid0 :=
  Pipeline.Window.ofSpec (Memref.whole main_arg0) S4096x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x72.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S512x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S4096x64.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond4 i == 1#1) | ⟨_ + 5, h⟩ => absurd h (Nat.not_lt.2 (Nat.le_add_left _ _))

class Facts : Prop extends Facts₀ where

variable [Facts]
-- ==== ReferenceIdeal.lean ====
abbrev S4096x128 : Shape := ⟨2, ![4096, 128]⟩
abbrev S4096x4096 : Shape := ⟨2, ![4096, 4096]⟩
abbrev S128x64 : Shape := ⟨2, ![128, 64]⟩
abbrev S64x64 : Shape := ⟨2, ![64, 64]⟩
abbrev S4096x64 : Shape := ⟨2, ![4096, 64]⟩
abbrev S_ : Shape := ⟨0, ![]⟩
abbrev S4096 : Shape := ⟨1, ![4096]⟩
abbrev S4096x1 : Shape := ⟨2, ![4096, 1]⟩

abbrev nBuf : Space → Nat
  | .hbm => 41
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128x64, .f32⟩
  | .hbm, ⟨3, _⟩ => ⟨S64x64, .f32⟩
  | .hbm, ⟨4, _⟩ => ⟨S4096x4096, .f32⟩
  | .hbm, ⟨5, _⟩ => ⟨S4096x64, .f32⟩
  | .hbm, ⟨6, _⟩ => ⟨S4096x64, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S4096x1, .f32⟩
  | .hbm, ⟨13, _⟩ => ⟨S4096x64, .f32⟩
  | .hbm, ⟨14, _⟩ => ⟨S4096x64, .f32⟩
  | .hbm, ⟨15, _⟩ => ⟨S4096x64, .f32⟩
  | .hbm, ⟨16, _⟩ => ⟨S4096x64, .f32⟩
  | .hbm, ⟨17, _⟩ => ⟨S_, .f32⟩
  | .hbm, ⟨18, _⟩ => ⟨S4096x64, .f32⟩
  | .hbm, ⟨19, _⟩ => ⟨S4096x64, .f32⟩
  | .hbm, ⟨20, _⟩ => ⟨S_, .f32⟩
  | .hbm, ⟨21, _⟩ => ⟨S4096x64, .f32⟩
  | .hbm, ⟨22, _⟩ => ⟨S4096x64, .f32⟩
  | .hbm, ⟨23, _⟩ => ⟨S4096x64, .f32⟩
  | .hbm, ⟨24, _⟩ => ⟨S4096x64, .f32⟩
  | .hbm, ⟨25, _⟩ => ⟨S_, .f32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S4096x1, .f32⟩
  | .hbm, ⟨31, _⟩ => ⟨S4096x64, .f32⟩
  | .hbm, ⟨32, _⟩ => ⟨S4096x64, .f32⟩
  | .hbm, ⟨33, _⟩ => ⟨S4096x64, .f32⟩
  | .hbm, ⟨34, _⟩ => ⟨S4096x64, .f32⟩
  | .hbm, ⟨35, _⟩ => ⟨S_, .f32⟩
  | .hbm, ⟨36, _⟩ => ⟨S4096x64, .f32⟩
  | .hbm, ⟨37, _⟩ => ⟨S4096x64, .f32⟩
  | .hbm, ⟨38, _⟩ => ⟨S_, .f32⟩
  | .hbm, ⟨39, _⟩ => ⟨S4096x64, .f32⟩
  | .hbm, ⟨40, _⟩ => ⟨S4096x64, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  transposes_S4096x4096_S4096x4096_1_0 : S4096x4096.Transposes [1, 0] S4096x4096
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x64_0_1 : S4096x1.BroadcastsInDim S4096x64 (![0, 1] : Fin 2 → Fin S4096x64.rank)
  bcast_S_S4096x64 : S_.BroadcastsInDim S4096x64 (![] : Fin 0 → Fin S4096x64.rank)
  dot_S4096x128_S128x64_S4096x64_1_0_0_1_n_n_wf : DotDims.WF S4096x128 S128x64 S4096x64 [1] [0] [0] [1] [] []
  dot_S4096x4096_S4096x64_S4096x64_1_0_0_1_n_n_wf : DotDims.WF S4096x4096 S4096x64 S4096x64 [1] [0] [0] [1] [] []
  dot_S4096x64_S64x64_S4096x64_1_0_0_1_n_n_wf : DotDims.WF S4096x64 S64x64 S4096x64 [1] [0] [0] [1] [] []

variable [Facts₀]

def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

class Facts : Prop extends Facts₀ where

variable [Facts]
-- ==== Proof.Pieces.lean ====
/-
  What each control case of the body leaves in the carried scratch buffers and in the output's staging buffer, as
  pure terms of the blocks it loaded: every store of the body covers its whole buffer, so what a buffer holds after
  the body is the value of the last store into it, and a load that follows a store of the same body reads that value.
-/
import proofs.«130470_g4337916969171_cont_sun_c4_63_30_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- At the grid's first point the body stores the padded first message matrix, built from the whole feature
    array and the padded first weight, into the first scratch buffer. -/
theorem scratch0_A (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S64x72 .f32) (harg3 : arg3.IsWhole) (arg4 : Memref sig .tc .vmem S512x4096 .f32) (harg4 : arg4.IsWhole) (arg5 : Memref sig .tc .vmem S4096x64 .f32) (harg5 : arg5.IsWhole) (arg6 : Memref sig .tc .vmem S4096x128 .bf16) (harg6 : arg6.IsWhole) (arg7 : Memref sig .tc .vmem S72x4096 .f32) (harg7 : arg7.IsWhole) (hc0 : cond0_0 i) (hc1 : cond0_1 i) (hc2 : ¬cond0_2 i) (hc3 : ¬cond0_3 i)
    (x0 : Vec F S4096x128 .f32) (x1 : Vec F S128x128 .f32) (x2 : Vec F S64x72 .f32) (x3 : Vec F S512x4096 .f32) :
    sout0_A_0 c i arg1 harg1 arg2 harg2 arg3 harg3 arg4 harg4 arg5 harg5 arg6 harg6 arg7 harg7 hc0 hc1 hc2 hc3 x0 x1 x2 x3 = k0_pay1 x0 x1 := by
  unfold sout0_A_0
  rw [View.read_writes_eq_canon _ _ _ (scover0_A_0 c i arg1 harg1 arg2 harg2 arg3 harg3 arg4 harg4 arg5 harg5 arg6 harg6 arg7 harg7 hc0 hc1 hc2 hc3 x0 x1 x2 x3)]
  unfold kernelRun0_A
  dsimp only
  sl_unfold_words
  rw [View.canon_unit_zero hz]
  simp only [View.readAt_eq_ld, harg1.read_unread, harg2.read_unread, harg3.read_unread, harg4.read_unread, harg6.read_unread, harg7.read_unread, View.ld_unit_zero (S := S4096x128) hz, View.ld_unit_zero (S := S128x128) hz, View.ld_unit_zero (S := S64x72) hz, View.ld_unit_zero (S := S512x4096) hz, View.ld_unit_zero (S := S72x4096) hz, View.readCov_unit_zero (S := S4096x128) _ hz, View.readCov_unit_zero (S := S72x4096) _ hz]

/-- At the first point the accumulator is stored whole: the block's contribution, computed against the message
    matrix the same body has just stored. -/
theorem scratch1_A (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S64x72 .f32) (harg3 : arg3.IsWhole) (arg4 : Memref sig .tc .vmem S512x4096 .f32) (harg4 : arg4.IsWhole) (arg5 : Memref sig .tc .vmem S4096x64 .f32) (harg5 : arg5.IsWhole) (arg6 : Memref sig .tc .vmem S4096x128 .bf16) (harg6 : arg6.IsWhole) (arg7 : Memref sig .tc .vmem S72x4096 .f32) (harg7 : arg7.IsWhole) (hc0 : cond0_0 i) (hc1 : cond0_1 i) (hc2 : ¬cond0_2 i) (hc3 : ¬cond0_3 i)
    (x0 : Vec F S4096x128 .f32) (x1 : Vec F S128x128 .f32) (x2 : Vec F S64x72 .f32) (x3 : Vec F S512x4096 .f32) :
    sout0_A_1 c i arg1 harg1 arg2 harg2 arg3 harg3 arg4 harg4 arg5 harg5 arg6 harg6 arg7 harg7 hc0 hc1 hc2 hc3 x0 x1 x2 x3 = k0_pay3 x3 (k0_pay1 x0 x1) x2 := by
  unfold sout0_A_1
  rw [View.read_writes_eq_canon _ _ _ (scover0_A_1 c i arg1 harg1 arg2 harg2 arg3 harg3 arg4 harg4 arg5 harg5 arg6 harg6 arg7 harg7 hc0 hc1 hc2 hc3 x0 x1 x2 x3)]
  unfold kernelRun0_A
  dsimp only
  sl_unfold_words
  rw [View.canon_unit_zero hz]
  simp only [View.readAt_eq_ld, harg1.read_unread, harg2.read_unread, harg3.read_unread, harg4.read_unread, harg6.read_unread, harg7.read_unread, View.ld_unit_zero (S := S4096x128) hz, View.ld_unit_zero (S := S128x128) hz, View.ld_unit_zero (S := S64x72) hz, View.ld_unit_zero (S := S512x4096) hz, View.ld_unit_zero (S := S72x4096) hz, View.readCov_unit_zero (S := S4096x128) _ hz, View.readCov_unit_zero (S := S72x4096) _ hz]

/-- At a middle point the accumulator takes the block's contribution on top of what the point before left. -/
theorem scratch1_B (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S64x72 .f32) (harg3 : arg3.IsWhole) (arg4 : Memref sig .tc .vmem S512x4096 .f32) (harg4 : arg4.IsWhole) (arg5 : Memref sig .tc .vmem S4096x64 .f32) (harg5 : arg5.IsWhole) (arg6 : Memref sig .tc .vmem S4096x128 .bf16) (harg6 : arg6.IsWhole) (arg7 : Memref sig .tc .vmem S72x4096 .f32) (harg7 : arg7.IsWhole) (hc0 : ¬cond0_0 i) (hc1 : ¬cond0_1 i) (hc2 : cond0_2 i) (hc3 : ¬cond0_3 i)
    (x0 : Vec F S4096x128 .f32) (x1 : Vec F S128x128 .f32) (x2 : Vec F S64x72 .f32) (x3 : Vec F S512x4096 .f32) (xs0 : Vec F S4096x128 .bf16) (xs1 : Vec F S72x4096 .f32) :
    sout0_B_1 c i arg1 harg1 arg2 harg2 arg3 harg3 arg4 harg4 arg5 harg5 arg6 harg6 arg7 harg7 hc0 hc1 hc2 hc3 x0 x1 x2 x3 xs0 xs1 = k0_pay4 x3 xs0 x2 xs1 := by
  unfold sout0_B_1
  rw [View.read_writes_eq_canon _ _ _ (scover0_B_1 c i arg1 harg1 arg2 harg2 arg3 harg3 arg4 harg4 arg5 harg5 arg6 harg6 arg7 harg7 hc0 hc1 hc2 hc3 x0 x1 x2 x3 xs0 xs1)]
  unfold kernelRun0_B
  dsimp only
  sl_unfold_words
  rw [View.canon_unit_zero hz]
  simp only [View.readAt_eq_ld, harg1.read_unread, harg2.read_unread, harg3.read_unread, harg4.read_unread, harg6.read_unread, harg7.read_unread, View.ld_unit_zero (S := S4096x128) hz, View.ld_unit_zero (S := S128x128) hz, View.ld_unit_zero (S := S64x72) hz, View.ld_unit_zero (S := S512x4096) hz, View.ld_unit_zero (S := S72x4096) hz, View.readCov_unit_zero (S := S4096x128) _ hz, View.readCov_unit_zero (S := S72x4096) _ hz]

/-- At the last point the accumulator is updated in the same way, -/
theorem scratch1_C (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S64x72 .f32) (harg3 : arg3.IsWhole) (arg4 : Memref sig .tc .vmem S512x4096 .f32) (harg4 : arg4.IsWhole) (arg5 : Memref sig .tc .vmem S4096x64 .f32) (harg5 : arg5.IsWhole) (arg6 : Memref sig .tc .vmem S4096x128 .bf16) (harg6 : arg6.IsWhole) (arg7 : Memref sig .tc .vmem S72x4096 .f32) (harg7 : arg7.IsWhole) (hc0 : ¬cond0_0 i) (hc1 : ¬cond0_1 i) (hc2 : cond0_2 i) (hc3 : cond0_3 i)
    (x0 : Vec F S4096x128 .f32) (x1 : Vec F S128x128 .f32) (x2 : Vec F S64x72 .f32) (x3 : Vec F S512x4096 .f32) (xs0 : Vec F S4096x128 .bf16) (xs1 : Vec F S72x4096 .f32) :
    sout0_C_1 c i arg1 harg1 arg2 harg2 arg3 harg3 arg4 harg4 arg5 harg5 arg6 harg6 arg7 harg7 hc0 hc1 hc2 hc3 x0 x1 x2 x3 xs0 xs1 = k0_pay4 x3 xs0 x2 xs1 := by
  unfold sout0_C_1
  rw [View.read_writes_eq_canon _ _ _ (scover0_C_1 c i arg1 harg1 arg2 harg2 arg3 harg3 arg4 harg4 arg5 harg5 arg6 harg6 arg7 harg7 hc0 hc1 hc2 hc3 x0 x1 x2 x3 xs0 xs1)]
  unfold kernelRun0_C
  dsimp only
  sl_unfold_words
  rw [View.canon_unit_zero hz]
  simp only [View.readAt_eq_ld, harg1.read_unread, harg2.read_unread, harg3.read_unread, harg4.read_unread, harg6.read_unread, harg7.read_unread, View.ld_unit_zero (S := S4096x128) hz, View.ld_unit_zero (S := S128x128) hz, View.ld_unit_zero (S := S64x72) hz, View.ld_unit_zero (S := S512x4096) hz, View.ld_unit_zero (S := S72x4096) hz, View.readCov_unit_zero (S := S4096x128) _ hz, View.readCov_unit_zero (S := S72x4096) _ hz]

/-- and the output block is the normalized, squashed and transposed accumulator as just updated. -/
theorem out_C (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S64x72 .f32) (harg3 : arg3.IsWhole) (arg4 : Memref sig .tc .vmem S512x4096 .f32) (harg4 : arg4.IsWhole) (arg5 : Memref sig .tc .vmem S4096x64 .f32) (harg5 : arg5.IsWhole) (arg6 : Memref sig .tc .vmem S4096x128 .bf16) (harg6 : arg6.IsWhole) (arg7 : Memref sig .tc .vmem S72x4096 .f32) (harg7 : arg7.IsWhole) (hc0 : ¬cond0_0 i) (hc1 : ¬cond0_1 i) (hc2 : cond0_2 i) (hc3 : cond0_3 i)
    (x0 : Vec F S4096x128 .f32) (x1 : Vec F S128x128 .f32) (x2 : Vec F S64x72 .f32) (x3 : Vec F S512x4096 .f32) (xs0 : Vec F S4096x128 .bf16) (xs1 : Vec F S72x4096 .f32) :
    out0_C_4 c i arg1 harg1 arg2 harg2 arg3 harg3 arg4 harg4 arg5 harg5 arg6 harg6 arg7 harg7 hc0 hc1 hc2 hc3 x0 x1 x2 x3 xs0 xs1 = k0_pay5 (k0_pay4 x3 xs0 x2 xs1) := by
  unfold out0_C_4
  rw [View.read_writes_eq_canon _ _ _ (cover0_C_4 c i arg1 harg1 arg2 harg2 arg3 harg3 arg4 harg4 arg5 harg5 arg6 harg6 arg7 harg7 hc0 hc1 hc2 hc3 x0 x1 x2 x3 xs0 xs1)]
  unfold kernelRun0_C
  dsimp only
  sl_unfold_words
  rw [View.canon_unit_zero hz]
  simp only [View.readAt_eq_ld, harg1.read_unread, harg2.read_unread, harg3.read_unread, harg4.read_unread, harg6.read_unread, harg7.read_unread, View.ld_unit_zero (S := S4096x128) hz, View.ld_unit_zero (S := S128x128) hz, View.ld_unit_zero (S := S64x72) hz, View.ld_unit_zero (S := S512x4096) hz, View.ld_unit_zero (S := S72x4096) hz, View.readCov_unit_zero (S := S4096x128) _ hz, View.readCov_unit_zero (S := S72x4096) _ hz]

end Cert.KernelIdeal.Pieces

end
-- ==== Proof.LibKeepdims.lean ====
/-
  Column vectors read at an index: what a keepdims row reduction needs.

  A row reduction that keeps its axis (a sum along the lanes of an [a, b] array, kept as an [a, 1] column and
  spread back over [a, b]) prints as three operations: the lane sum [a, b] → [a], a shape cast [a] → [a, 1] and
  a broadcast [a, 1] → [a, b]. Each is read here at an index written with explicit coordinates:
    • the sum, at p, is ∑_k of the source at (p, k);
    • the cast, at (p, 0), is the vector at p (row-major position p · 1 + 0 = p on both sides);
    • the broadcast, at (p, q), is the column at (p, 0).
  All three are stated for any extents a and b.
-/
import Idealize.ShloMosaic.Lib.Pipeline.Value
import Idealize.ShloMosaic.Lib.ValueIdx
import Idealize.ShloMosaic.PureOps.Ideal.Laws

namespace Keepdims

open Idealize.ShloMosaic Idealize.ShloMosaic.ValueIdx

variable {α : Type}

/-- A vector of length a viewed as an [a, 1] column reads, at (p, z), the vector at p: the column's second
    coordinate can only be 0, so both indices sit at row-major position p. -/
theorem shapeCast_a_a1_apply {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- An [a, 1] column spread over [a, b] reads, at (p, q), the column at (p, 0): the row coordinate is kept
    (also when a = 1, where it can only be 0) and the unit axis is read at 0. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The index of an [a, b] array that lies over p of the reduced [a] with lane k put back is (p, k). -/
theorem lift_lane {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- On the extended reals the sum of an [a, b] array along its lanes is, at p, the sum over k of the entries
    (p, k): the reduction starts from the zero word, the neutral element of the sum, and there is no rounding
    for the order of the additions to matter. -/
theorem laneSum_apply {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lane h p k)

end Keepdims
-- ==== Proof.PayIdeal.lean ====
/-
  The body's arithmetic read at an index, on the extended reals.

  Each matrix product of the body accumulates into the zero block, so at an index it is the plain sum over the
  contracted axis. The two "augmented" matrices carry a column of ones at position 64: the product of a block of the
  incidence matrix with such a matrix has, in column 64, the block's row sums (and the transposed product has, in
  row 64, its column sums), so one product delivers both the aggregated messages and their normalizer.
-/
import proofs.«130470_g4337916969171_cont_sun_c4_63_30_alg».proof.Proof.Gen.KernelIdeal.Skeleton
import proofs.«130470_g4337916969171_cont_sun_c4_63_30_alg».proof.Proof.LibKeepdims
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

open Idealize.ShloMosaic Idealize.ShloMosaic.ValueIdx

namespace Cert.KernelIdeal.PayIdeal

open Cert.KernelIdeal Cert.KernelIdeal.Gen

/-! ## Two general readings -/

/-- A product with one contracted axis of extent `K`, accumulated into the zero block, is at `j` the sum over
    `k < K` of the left operand at `Lx k` times the right at `Rx k`, whenever those are the operand indices the
    dimension numbers name at `j` and `k`. -/
theorem matmul_zero_sum {sl sr so : Shape} {φ₁ φ₂ : FTy} (D : DotDims sl sr so) (K : ℕ) (hr : D.contr.rank = 1)
    (hs : D.contr.size ⟨0, by omega⟩ = K) (lhs : FVec Ideal sl φ₁) (rhs : FVec Ideal sr φ₂) (j : so.Idx)
    (Lx : Fin K → sl.Idx) (Rx : Fin K → sr.Idx)
    (hL : ∀ k, D.lhsIdx j ((contrEquiv1 D K hr hs).symm k) = Lx k)
    (hR : ∀ k, D.rhsIdx j ((contrEquiv1 D K hr hs).symm k) = Rx k) :
    matmul D none lhs rhs (constant (F := Ideal) so .f32 0x00000000#32) j = ∑ k : Fin K, lhs (Lx k) * rhs (Rx k) := by
  show FloatOps.matmul D none lhs rhs (constant (F := Ideal) so .f32 0x00000000#32) j = _
  rw [Ideal.matmul_constant_zero_apply, ← Equiv.sum_comp (contrEquiv1 D K hr hs).symm]
  exact Finset.sum_congr rfl fun k _ => by rw [hL k, hR k]

/-- Column 64 replaced: selecting, where the column number is 64, the first array and elsewhere the second. -/
theorem select_col64 {α : Type} {n0 n1 : ℕ} (hn : n1 ≤ 4096) (hi : (⟨2, ![n0, n1]⟩ : Shape).Iotas .tc 32 [1])
    (a b : (⟨2, ![n0, n1]⟩ : Shape).Idx → α) (p : Fin n0) (q : Fin n1) :
    select (cmpi .eq (iota .tc ⟨2, ![n0, n1]⟩ 32 [1] hi) (broadcast ⟨2, ![n0, n1]⟩ 64#32)) a b (ix2 p q)
      = if q.val = 64 then a (ix2 p q) else b (ix2 p q) := by
  show Scalar.select (IntOp.cmpi .eq (iota .tc ⟨2, ![n0, n1]⟩ 32 [1] hi (ix2 p q)) 64#32) _ _ = _
  rw [iota_single_apply]
  show Scalar.select (IntOp.cmpi .eq (BitVec.ofNat 32 q.val) 64#32) _ _ = _
  have hq : q.val < 4096 := lt_of_lt_of_le q.isLt hn
  by_cases h : q.val = 64
  · rw [if_pos h, h]; rfl
  · rw [if_neg h]
    have hne : (BitVec.ofNat 32 q.val == 64#32) = false := by
      rw [beq_eq_false_iff_ne]
      intro e
      have := congrArg BitVec.toNat e
      simp only [BitVec.toNat_ofNat] at this
      omega
    unfold IntOp.cmpi Scalar.select
    simp only [hne]
    rfl

/-! ## The four matrix products, each at an index -/

theorem d1_lhs0 (j : S4096x128.Idx) (q : dot_S4096x128_S128x128_S4096x128_1_0_0_1_n_n.contr.Idx) :
    (dot_S4096x128_S128x128_S4096x128_1_0_0_1_n_n.lhsIdx j q 0).val = (j 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem d1_lhs1 (j : S4096x128.Idx) (q : dot_S4096x128_S128x128_S4096x128_1_0_0_1_n_n.contr.Idx) :
    (dot_S4096x128_S128x128_S4096x128_1_0_0_1_n_n.lhsIdx j q 1).val = (q ⟨0, by decide⟩).val :=
  dot_S4096x128_S128x128_S4096x128_1_0_0_1_n_n.lhsIdx_val_of_single rfl j q
theorem d1_rhs0 (j : S4096x128.Idx) (q : dot_S4096x128_S128x128_S4096x128_1_0_0_1_n_n.contr.Idx) :
    (dot_S4096x128_S128x128_S4096x128_1_0_0_1_n_n.rhsIdx j q 0).val = (q ⟨0, by decide⟩).val :=
  dot_S4096x128_S128x128_S4096x128_1_0_0_1_n_n.rhsIdx_val_of_single rfl j q
theorem d1_rhs1 (j : S4096x128.Idx) (q : dot_S4096x128_S128x128_S4096x128_1_0_0_1_n_n.contr.Idx) :
    (dot_S4096x128_S128x128_S4096x128_1_0_0_1_n_n.rhsIdx j q 1).val = (j 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

theorem d2_lhs0 (j : S512x128.Idx) (q : dot_S512x4096_S4096x128_S512x128_1_0_0_1_n_n.contr.Idx) :
    (dot_S512x4096_S4096x128_S512x128_1_0_0_1_n_n.lhsIdx j q 0).val = (j 0).val := by
  unfold DotDims.lhsIdx
  rw [dif_neg (show ¬(0 : Fin S512x4096.rank) ∈ dot_S512x4096_S4096x128_S512x128_1_0_0_1_n_n.lhsBatch by decide), dif_pos (show (0 : Fin S512x4096.rank) ∈ dot_S512x4096_S4096x128_S512x128_1_0_0_1_n_n.lhsNonContracting by decide)]
  rfl
theorem d2_lhs1 (j : S512x128.Idx) (q : dot_S512x4096_S4096x128_S512x128_1_0_0_1_n_n.contr.Idx) :
    (dot_S512x4096_S4096x128_S512x128_1_0_0_1_n_n.lhsIdx j q 1).val = (q ⟨0, by decide⟩).val :=
  dot_S512x4096_S4096x128_S512x128_1_0_0_1_n_n.lhsIdx_val_of_single rfl j q
theorem d2_rhs0 (j : S512x128.Idx) (q : dot_S512x4096_S4096x128_S512x128_1_0_0_1_n_n.contr.Idx) :
    (dot_S512x4096_S4096x128_S512x128_1_0_0_1_n_n.rhsIdx j q 0).val = (q ⟨0, by decide⟩).val :=
  dot_S512x4096_S4096x128_S512x128_1_0_0_1_n_n.rhsIdx_val_of_single rfl j q
theorem d2_rhs1 (j : S512x128.Idx) (q : dot_S512x4096_S4096x128_S512x128_1_0_0_1_n_n.contr.Idx) :
    (dot_S512x4096_S4096x128_S512x128_1_0_0_1_n_n.rhsIdx j q 1).val = (j 1).val := by
  unfold DotDims.rhsIdx
  rw [dif_neg (show ¬(1 : Fin S4096x128.rank) ∈ dot_S512x4096_S4096x128_S512x128_1_0_0_1_n_n.rhsBatch by decide), dif_pos (show (1 : Fin S4096x128.rank) ∈ dot_S512x4096_S4096x128_S512x128_1_0_0_1_n_n.rhsNonContracting by decide)]
  rfl

theorem d3_lhs0 (j : S512x72.Idx) (q : dot_S512x64_S64x72_S512x72_1_0_0_1_n_n.contr.Idx) :
    (dot_S512x64_S64x72_S512x72_1_0_0_1_n_n.lhsIdx j q 0).val = (j 0).val := by
  unfold DotDims.lhsIdx
  rw [dif_neg (show ¬(0 : Fin S512x64.rank) ∈ dot_S512x64_S64x72_S512x72_1_0_0_1_n_n.lhsBatch by decide), dif_pos (show (0 : Fin S512x64.rank) ∈ dot_S512x64_S64x72_S512x72_1_0_0_1_n_n.lhsNonContracting by decide)]
  rfl
theorem d3_lhs1 (j : S512x72.Idx) (q : dot_S512x64_S64x72_S512x72_1_0_0_1_n_n.contr.Idx) :
    (dot_S512x64_S64x72_S512x72_1_0_0_1_n_n.lhsIdx j q 1).val = (q ⟨0, by decide⟩).val :=
  dot_S512x64_S64x72_S512x72_1_0_0_1_n_n.lhsIdx_val_of_single rfl j q
theorem d3_rhs0 (j : S512x72.Idx) (q : dot_S512x64_S64x72_S512x72_1_0_0_1_n_n.contr.Idx) :
    (dot_S512x64_S64x72_S512x72_1_0_0_1_n_n.rhsIdx j q 0).val = (q ⟨0, by decide⟩).val :=
  dot_S512x64_S64x72_S512x72_1_0_0_1_n_n.rhsIdx_val_of_single rfl j q
theorem d3_rhs1 (j : S512x72.Idx) (q : dot_S512x64_S64x72_S512x72_1_0_0_1_n_n.contr.Idx) :
    (dot_S512x64_S64x72_S512x72_1_0_0_1_n_n.rhsIdx j q 1).val = (j 1).val := by
  unfold DotDims.rhsIdx
  rw [dif_neg (show ¬(1 : Fin S64x72.rank) ∈ dot_S512x64_S64x72_S512x72_1_0_0_1_n_n.rhsBatch by decide), dif_pos (show (1 : Fin S64x72.rank) ∈ dot_S512x64_S64x72_S512x72_1_0_0_1_n_n.rhsNonContracting by decide)]
  rfl

theorem d4_lhs0 (j : S72x4096.Idx) (q : dot_S512x72_S512x4096_S72x4096_0_0_1_1_n_n.contr.Idx) :
    (dot_S512x72_S512x4096_S72x4096_0_0_1_1_n_n.lhsIdx j q 0).val = (q ⟨0, by decide⟩).val :=
  dot_S512x72_S512x4096_S72x4096_0_0_1_1_n_n.lhsIdx_val_of_single rfl j q
theorem d4_lhs1 (j : S72x4096.Idx) (q : dot_S512x72_S512x4096_S72x4096_0_0_1_1_n_n.contr.Idx) :
    (dot_S512x72_S512x4096_S72x4096_0_0_1_1_n_n.lhsIdx j q 1).val = (j 0).val := by
  unfold DotDims.lhsIdx
  rw [dif_neg (show ¬(1 : Fin S512x72.rank) ∈ dot_S512x72_S512x4096_S72x4096_0_0_1_1_n_n.lhsBatch by decide), dif_pos (show (1 : Fin S512x72.rank) ∈ dot_S512x72_S512x4096_S72x4096_0_0_1_1_n_n.lhsNonContracting by decide)]
  rfl
theorem d4_rhs0 (j : S72x4096.Idx) (q : dot_S512x72_S512x4096_S72x4096_0_0_1_1_n_n.contr.Idx) :
    (dot_S512x72_S512x4096_S72x4096_0_0_1_1_n_n.rhsIdx j q 0).val = (q ⟨0, by decide⟩).val :=
  dot_S512x72_S512x4096_S72x4096_0_0_1_1_n_n.rhsIdx_val_of_single rfl j q
theorem d4_rhs1 (j : S72x4096.Idx) (q : dot_S512x72_S512x4096_S72x4096_0_0_1_1_n_n.contr.Idx) :
    (dot_S512x72_S512x4096_S72x4096_0_0_1_1_n_n.rhsIdx j q 1).val = (j 1).val := by
  unfold DotDims.rhsIdx
  rw [dif_neg (show ¬(1 : Fin S512x4096.rank) ∈ dot_S512x72_S512x4096_S72x4096_0_0_1_1_n_n.rhsBatch by decide), dif_pos (show (1 : Fin S512x4096.rank) ∈ dot_S512x72_S512x4096_S72x4096_0_0_1_1_n_n.rhsNonContracting by decide)]
  rfl

/-- Features against the padded first weight, at `(f, c)`. -/
theorem dot1_apply (x : FVec Ideal S4096x128 .f32) (w : FVec Ideal S128x128 .f32) (f : Fin 4096) (c : Fin 128) :
    matmul dot_S4096x128_S128x128_S4096x128_1_0_0_1_n_n none x w (constant (F := Ideal) S4096x128 .f32 0x00000000#32) (ix2 f c)
      = ∑ k : Fin 128, x (ix2 f k) * w (ix2 k c) := by
  refine matmul_zero_sum dot_S4096x128_S128x128_S4096x128_1_0_0_1_n_n 128 rfl rfl x w (ix2 f c) (fun k => ix2 f k) (fun k => ix2 k c) (fun k => ?_) (fun k => ?_)
  · funext a; apply Fin.ext
    match a with
    | ⟨0, _⟩ => exact d1_lhs0 _ _
    | ⟨1, _⟩ => exact (d1_lhs1 _ _).trans (contrEquiv1_symm_val dot_S4096x128_S128x128_S4096x128_1_0_0_1_n_n 128 rfl rfl k)
  · funext a; apply Fin.ext
    match a with
    | ⟨0, _⟩ => exact (d1_rhs0 _ _).trans (contrEquiv1_symm_val dot_S4096x128_S128x128_S4096x128_1_0_0_1_n_n 128 rfl rfl k)
    | ⟨1, _⟩ => exact d1_rhs1 _ _

/-- A block of incidence rows against the augmented message matrix, at `(r, c)`. -/
theorem dot2_apply (b : FVec Ideal S512x4096 .bf16) (y : FVec Ideal S4096x128 .bf16) (r : Fin 512) (c : Fin 128) :
    matmul dot_S512x4096_S4096x128_S512x128_1_0_0_1_n_n none b y (constant (F := Ideal) S512x128 .f32 0x00000000#32) (ix2 r c)
      = ∑ f : Fin 4096, b (ix2 r f) * y (ix2 f c) := by
  refine matmul_zero_sum dot_S512x4096_S4096x128_S512x128_1_0_0_1_n_n 4096 rfl rfl b y (ix2 r c) (fun k => ix2 r k) (fun k => ix2 k c) (fun k => ?_) (fun k => ?_)
  · funext a; apply Fin.ext
    match a with
    | ⟨0, _⟩ => exact d2_lhs0 _ _
    | ⟨1, _⟩ => exact (d2_lhs1 _ _).trans (contrEquiv1_symm_val dot_S512x4096_S4096x128_S512x128_1_0_0_1_n_n 4096 rfl rfl k)
  · funext a; apply Fin.ext
    match a with
    | ⟨0, _⟩ => exact (d2_rhs0 _ _).trans (contrEquiv1_symm_val dot_S512x4096_S4096x128_S512x128_1_0_0_1_n_n 4096 rfl rfl k)
    | ⟨1, _⟩ => exact d2_rhs1 _ _

/-- The block's new features against the padded second weight, at `(r, c)`. -/
theorem dot3_apply (x : FVec Ideal S512x64 .f32) (w : FVec Ideal S64x72 .f32) (r : Fin 512) (c : Fin 72) :
    matmul dot_S512x64_S64x72_S512x72_1_0_0_1_n_n none x w (constant (F := Ideal) S512x72 .f32 0x00000000#32) (ix2 r c)
      = ∑ k : Fin 64, x (ix2 r k) * w (ix2 k c) := by
  refine matmul_zero_sum dot_S512x64_S64x72_S512x72_1_0_0_1_n_n 64 rfl rfl x w (ix2 r c) (fun k => ix2 r k) (fun k => ix2 k c) (fun k => ?_) (fun k => ?_)
  · funext a; apply Fin.ext
    match a with
    | ⟨0, _⟩ => exact d3_lhs0 _ _
    | ⟨1, _⟩ => exact (d3_lhs1 _ _).trans (contrEquiv1_symm_val dot_S512x64_S64x72_S512x72_1_0_0_1_n_n 64 rfl rfl k)
  · funext a; apply Fin.ext
    match a with
    | ⟨0, _⟩ => exact (d3_rhs0 _ _).trans (contrEquiv1_symm_val dot_S512x64_S64x72_S512x72_1_0_0_1_n_n 64 rfl rfl k)
    | ⟨1, _⟩ => exact d3_rhs1 _ _

/-- The transposed product: the block's augmented messages contracted with the block itself along the block's rows,
    at `(c, f)`. -/
theorem dot4_apply (y : FVec Ideal S512x72 .bf16) (b : FVec Ideal S512x4096 .bf16) (c : Fin 72) (f : Fin 4096) :
    matmul dot_S512x72_S512x4096_S72x4096_0_0_1_1_n_n none y b (constant (F := Ideal) S72x4096 .f32 0x00000000#32) (ix2 c f)
      = ∑ r : Fin 512, y (ix2 r c) * b (ix2 r f) := by
  refine matmul_zero_sum dot_S512x72_S512x4096_S72x4096_0_0_1_1_n_n 512 rfl rfl y b (ix2 c f) (fun k => ix2 k c) (fun k => ix2 k f) (fun k => ?_) (fun k => ?_)
  · funext a; apply Fin.ext
    match a with
    | ⟨0, _⟩ => exact (d4_lhs0 _ _).trans (contrEquiv1_symm_val dot_S512x72_S512x4096_S72x4096_0_0_1_1_n_n 512 rfl rfl k)
    | ⟨1, _⟩ => exact d4_lhs1 _ _
  · funext a; apply Fin.ext
    match a with
    | ⟨0, _⟩ => exact (d4_rhs0 _ _).trans (contrEquiv1_symm_val dot_S512x72_S512x4096_S72x4096_0_0_1_1_n_n 512 rfl rfl k)
    | ⟨1, _⟩ => exact d4_rhs1 _ _

/-! ## The first message matrix, augmented -/

/-- The augmented first message matrix at `(f, c)`: one in column 64, elsewhere the features' row `f` against the
    padded weight's column `c`. -/
theorem pay1_apply (x : FVec Ideal S4096x128 .f32) (w : FVec Ideal S128x128 .f32) (f : Fin 4096) (c : Fin 128) :
    k0_pay1 (F := Ideal) x w (ix2 f c)
      = if c.val = 64 then Ideal.ofBits .f32 0x3F800000#32 else ∑ k : Fin 128, x (ix2 f k) * w (ix2 k c) := by
  unfold k0_pay1
  dsimp only
  simp only [shapeCast_self]
  rw [truncf_apply, select_col64 (by decide), dot1_apply]
  rfl

/-! ## One block's contribution -/

/-- Row `r` of a block against column `c` of the augmented message matrix: for `c < 64` the aggregated message,
    for `c = 64` the row's sum. -/
def rowAgg (blk : FVec Ideal S512x4096 .f32) (m1e : FVec Ideal S4096x128 .bf16) (r : Fin 512) (c : Fin 128) : EReal :=
  ∑ f : Fin 4096, blk (ix2 r f) * m1e (ix2 f c)

/-- The block's new features: the aggregated message divided by the row's sum, squashed. -/
def blkFeat (blk : FVec Ideal S512x4096 .f32) (m1e : FVec Ideal S4096x128 .bf16) (r : Fin 512) (k : Fin 64) : EReal :=
  Ideal.logistic (rowAgg blk m1e r ⟨k.val, by have := k.isLt; omega⟩
    * Ideal.div (Ideal.ofBits .f32 0x3F800000#32) (rowAgg blk m1e r ⟨64, by decide⟩))

/-- The block's second messages, augmented with a one in column 64. -/
def blkMsg (blk : FVec Ideal S512x4096 .f32) (m1e : FVec Ideal S4096x128 .bf16) (w2p : FVec Ideal S64x72 .f32)
    (r : Fin 512) (c : Fin 72) : EReal :=
  if c.val = 64 then Ideal.ofBits .f32 0x3F800000#32 else ∑ k : Fin 64, blkFeat blk m1e r k * w2p (ix2 k c)

/-- The normalize-and-squash step at `(r, k)`, over any product matrix `y`: column `k` times the reciprocal of
    column 64. -/
theorem feat_apply (y : FVec Ideal S512x128 .f32) (h1 : S512x128.Slices ![0, 0] S512x64)
    (h2 : S512x128.Slices ![0, 64] S512x1) (h3 : S512x1.Broadcasts S512x64) (r : Fin 512) (k : Fin 64) :
    logistic (mulf (extractStridedSlice S512x64 ![0, 0] y h1)
        (broadcastTo S512x64 (divf (broadcast S512x1 (Scalar.ofBits (F := Ideal) .f32 0x3F800000#32))
          (extractStridedSlice S512x1 ![0, 64] y h2)) h3)) (ix2 r k)
      = Ideal.logistic (y (ix2 r ⟨k.val, by have := k.isLt; omega⟩)
          * Ideal.div (Ideal.ofBits .f32 0x3F800000#32) (y (ix2 r ⟨64, by decide⟩))) := by
  show Ideal.logistic (extractStridedSlice S512x64 ![0, 0] y h1 (ix2 r k) * broadcastTo S512x64 _ h3 (ix2 r k)) = _
  rw [slice2_axis1_apply 0 y h1 r k ⟨k.val, by have := k.isLt; omega⟩ (by simp), Keepdims.broadcastTo_a1_ab_apply]
  show Ideal.logistic (_ * Ideal.div _ (extractStridedSlice S512x1 ![0, 64] y h2 (ix2 r (0 : Fin 1)))) = _
  rw [slice2_axis1_apply 64 y h2 r (0 : Fin 1) ⟨64, by decide⟩ (by simp)]
  rfl

/-- One block's contribution to the accumulator at `(c, f)`: over the block's rows, the augmented second message of
    the row in column `c` times the row's entry in column `f`. -/
theorem pay2_apply (blk : FVec Ideal S512x4096 .f32) (m1e : FVec Ideal S4096x128 .bf16) (w2p : FVec Ideal S64x72 .f32)
    (c : Fin 72) (f : Fin 4096) :
    k0_pay2 (F := Ideal) blk m1e w2p (ix2 c f) = ∑ r : Fin 512, blkMsg blk m1e w2p r c * blk (ix2 r f) := by
  unfold k0_pay2
  dsimp only
  simp only [shapeCast_self]
  rw [dot4_apply]
  refine Finset.sum_congr rfl fun r _ => ?_
  rw [truncf_apply, truncf_apply, select_col64 (by decide)]
  unfold blkMsg
  by_cases hc : c.val = 64
  · rw [if_pos hc, if_pos hc]; rfl
  · rw [if_neg hc, if_neg hc, dot3_apply]
    refine congrArg (· * blk (ix2 r f)) (Finset.sum_congr rfl fun k _ => ?_)
    refine congrArg (· * w2p (ix2 k c)) ?_
    rw [feat_apply]
    unfold blkFeat rowAgg
    rw [dot2_apply, dot2_apply]
    rfl

/-- Storing the contribution as it is. -/
theorem pay3_eq (blk : FVec Ideal S512x4096 .f32) (m1e : FVec Ideal S4096x128 .bf16) (w2p : FVec Ideal S64x72 .f32) :
    k0_pay3 (F := Ideal) blk m1e w2p = k0_pay2 (F := Ideal) blk m1e w2p := by
  unfold k0_pay3; exact shapeCast_self _ _

/-- Adding the contribution to what the accumulator held. -/
theorem pay4_apply (blk : FVec Ideal S512x4096 .f32) (m1e : FVec Ideal S4096x128 .bf16) (w2p : FVec Ideal S64x72 .f32)
    (acc : FVec Ideal S72x4096 .f32) (y : S72x4096.Idx) :
    k0_pay4 (F := Ideal) blk m1e w2p acc y = acc y + k0_pay2 (F := Ideal) blk m1e w2p y := by
  unfold k0_pay4
  try dsimp only
  rw [shapeCast_self]
  rfl

/-! ## The last step -/

/-- The output at `(f, c)`: row `c` of the accumulator times the reciprocal of its row 64, both in column `f`,
    squashed — the accumulator read transposed. -/
theorem pay5_apply (acc : FVec Ideal S72x4096 .f32) (f : Fin 4096) (c : Fin 64) :
    k0_pay5 (F := Ideal) acc (ix2 f c)
      = Ideal.logistic (acc (ix2 ⟨c.val, by have := c.isLt; omega⟩ f)
          * Ideal.div (Ideal.ofBits .f32 0x3F800000#32) (acc (ix2 ⟨64, by decide⟩ f))) := by
  unfold k0_pay5
  dsimp only
  rw [transpose_ix2_apply]
  show Ideal.logistic (extractStridedSlice S64x4096 ![0, 0] acc _ (ix2 c f) * broadcastTo S64x4096 _ _ (ix2 c f)) = _
  rw [slice2_axis0_apply 0 acc _ c f ⟨c.val, by have := c.isLt; omega⟩ (by simp), broadcastTo_1b_ab_apply]
  show Ideal.logistic (_ * Ideal.div _ (extractStridedSlice S1x4096 ![64, 0] acc _ (ix2 (0 : Fin 1) f))) = _
  rw [slice2_axis0_apply 64 acc _ (0 : Fin 1) f ⟨64, by decide⟩ (by simp)]
  rfl

end Cert.KernelIdeal.PayIdeal

end
-- ==== Proof.LibSumBlocks.lean ====
/-
  A sum over `n * b` consecutive indices is the sum, over `n` blocks, of the sums over the `b` indices of each
  block: index `e` is `b * j + k` for exactly one block `j < n` and one offset `k < b`. This holds in every additive
  commutative monoid — only commutativity and associativity of the addition are used — so in particular on the
  extended reals, where no finiteness is needed.
-/
import Mathlib.Algebra.BigOperators.Fin
import Mathlib.Logic.Equiv.Fin.Basic

namespace SumBlocks

open Finset

/-- `∑_{e < n·b} f e = ∑_{j < n} ∑_{k < b} f (b·j + k)`: the indices below `n · b` are the pairs (block, offset). -/
theorem sum_mul_eq_sum_blocks {M : Type*} [AddCommMonoid M] (n b : ℕ) (f : ℕ → M) :
    ∑ e : Fin (n * b), f e.val = ∑ j : Fin n, ∑ k : Fin b, f (b * j.val + k.val) := by
  rw [← (finProdFinEquiv (m := n) (n := b)).sum_comp (fun e : Fin (n * b) => f e.val), Fintype.sum_prod_type]
  refine Finset.sum_congr rfl fun j _ => Finset.sum_congr rfl fun k _ => ?_
  exact congrArg f (Nat.add_comm _ _)

/-- Three blocks, with the left-nested grouping in which a running total takes them up one after the other. -/
theorem sum_three_blocks {M : Type*} [AddCommMonoid M] (b : ℕ) (f : ℕ → M) :
    ∑ e : Fin (3 * b), f e.val
      = ((∑ k : Fin b, f (b * 0 + k.val)) + ∑ k : Fin b, f (b * 1 + k.val)) + ∑ k : Fin b, f (b * 2 + k.val) := by
  rw [sum_mul_eq_sum_blocks 3 b f, Fin.sum_univ_three]
  rfl

end SumBlocks
-- ==== Proof.Spec.lean ====
/-
  The specification: two rounds of incidence message passing as one function of the argument arrays, index by index,
  on the extended reals.

  With X the face features [4096, 128], B the incidence matrix [4096 edges, 4096 faces], W1 [128, 64] and W2 [64, 64]:
    msg1  f c = ∑_k X(f,k) · W1(k,c)                       the faces' messages
    agg1  e c = ∑_f B(e,f) · msg1 f c                       aggregated on edge e
    feat1 e c = σ((1 / ∑_f B(e,f)) · agg1 e c)              the edges' new features
    msg2  e c = ∑_k feat1 e k · W2(k,c)                     the edges' messages
    agg2  f c = ∑_e B(e,f) · msg2 e c                       aggregated on face f, through the transposed incidence
    out   f c = σ((1 / ∑_e B(e,f)) · agg2 f c)
  where σ x = 1 / (1 + e^(-x)) and the quotient is the extended reals' (total) one.

  The one law that rearranges a sum is that the 4096 edges are 8 blocks of 512 consecutive ones; it holds in any
  additive commutative monoid, so nothing here needs an entry to be finite.
-/
import Idealize.ShloMosaic.PureOps.Ideal
import Idealize.ShloMosaic.Lib.ValueIdx
import proofs.«130470_g4337916969171_cont_sun_c4_63_30_alg».proof.Proof.LibSumBlocks

noncomputable section

namespace Cert.Spec

open Idealize.ShloMosaic Idealize.ShloMosaic.ValueIdx

section
variable (X : (⟨2, ![4096, 128]⟩ : Shape).Idx → EReal) (B : (⟨2, ![4096, 4096]⟩ : Shape).Idx → EReal)
  (W1 : (⟨2, ![128, 64]⟩ : Shape).Idx → EReal) (W2 : (⟨2, ![64, 64]⟩ : Shape).Idx → EReal)

/-- The message of face `f` in channel `c`. -/
def msg1 (f : Fin 4096) (c : Fin 64) : EReal := ∑ k : Fin 128, X (ix2 f k) * W1 (ix2 k c)

/-- The sum of row `e` of the incidence matrix. -/
def rowSum (e : Fin 4096) : EReal := ∑ f : Fin 4096, B (ix2 e f)

/-- The faces' messages aggregated on edge `e`. -/
def agg1 (e : Fin 4096) (c : Fin 64) : EReal := ∑ f : Fin 4096, B (ix2 e f) * msg1 X W1 f c

/-- The new feature of edge `e` in channel `c`. -/
def feat1 (e : Fin 4096) (c : Fin 64) : EReal := Ideal.logistic (Ideal.div 1 (rowSum B e) * agg1 X B W1 e c)

/-- The message of edge `e` in channel `c`. -/
def msg2 (e : Fin 4096) (c : Fin 64) : EReal := ∑ k : Fin 64, feat1 X B W1 e k * W2 (ix2 k c)

/-- The sum of column `f` of the incidence matrix. -/
def colSum (f : Fin 4096) : EReal := ∑ e : Fin 4096, B (ix2 e f)

/-- The edges' messages aggregated on face `f`. -/
def agg2 (f : Fin 4096) (c : Fin 64) : EReal := ∑ e : Fin 4096, B (ix2 e f) * msg2 X B W1 W2 e c

/-- The result at face `f`, channel `c`. -/
def out (f : Fin 4096) (c : Fin 64) : EReal := Ideal.logistic (Ideal.div 1 (colSum B f) * agg2 X B W1 W2 f c)

/-- The result array. -/
def G : (⟨2, ![4096, 64]⟩ : Shape).Idx → EReal := fun i => out X B W1 W2 (i 0) (i 1)

end

/-- Edge number `512 · i + r`: row `r` of block `i`. -/
def rowOf (i : Fin 8) (r : Fin 512) : Fin 4096 :=
  ⟨512 * i.val + r.val, by have := i.isLt; have := r.isLt; omega⟩

/-- A sum over the edges is the sum over the 8 blocks of the sums over each block's 512 rows. -/
theorem sum_rows_by_blocks (T : Fin 4096 → EReal) : ∑ i : Fin 8, ∑ r : Fin 512, T (rowOf i r) = ∑ e : Fin 4096, T e := by
  have h := SumBlocks.sum_mul_eq_sum_blocks (M := EReal) 8 512 (fun n => if h : n < 4096 then T ⟨n, h⟩ else 0)
  have h' : ∑ e : Fin 4096, (if h : e.val < 4096 then T ⟨e.val, h⟩ else 0)
      = ∑ j : Fin 8, ∑ k : Fin 512, (if h : 512 * j.val + k.val < 4096 then T ⟨512 * j.val + k.val, h⟩ else 0) := h
  calc ∑ i : Fin 8, ∑ r : Fin 512, T (rowOf i r)
      = ∑ j : Fin 8, ∑ k : Fin 512, (if h : 512 * j.val + k.val < 4096 then T ⟨512 * j.val + k.val, h⟩ else 0) :=
        Finset.sum_congr rfl fun i _ => Finset.sum_congr rfl fun r _ => by
          rw [dif_pos (by have := i.isLt; have := r.isLt; omega)]; rfl
    _ = ∑ e : Fin 4096, (if h : e.val < 4096 then T ⟨e.val, h⟩ else 0) := h'.symm
    _ = ∑ e : Fin 4096, T e := Finset.sum_congr rfl fun e _ => by rw [dif_pos e.isLt]

end Cert.Spec

end
-- ==== Proof.KernelSpec.lean ====
/-
  The body's arithmetic, summed over the eight row blocks, is the specification.

  Write e = 512·i + r for row r of block i. Against the augmented first message matrix (the faces' messages, and a
  one in column 64) row r of block i gives, in column k < 64, the messages aggregated on edge e and, in column 64,
  ∑_f B(e,f)·1, the row's sum; so the block's new features are the specification's feat1 at e (the product with the
  reciprocal commuted). Its second messages, augmented again with a one in column 64 and contracted with the block
  along the block's rows, contribute to the accumulator, in row c < 64, ∑_r msg2 e c · B(e,f) and, in row 64,
  ∑_r 1 · B(e,f). Summed over the blocks these are the sums over all edges: agg2 f c (the product commuted) and the
  column's sum. The last step divides one by the other and squashes: the specification's out f c.
  Only x·1 = x, 1·x = x, the commutativity of the product and the regrouping of a sum by blocks are used.
-/
import proofs.«130470_g4337916969171_cont_sun_c4_63_30_alg».proof.Proof.PayIdeal
import proofs.«130470_g4337916969171_cont_sun_c4_63_30_alg».proof.Proof.Spec

noncomputable section

open Idealize.ShloMosaic Idealize.ShloMosaic.ValueIdx

namespace Cert.KernelIdeal.KernelSpec

open Cert.KernelIdeal Cert.KernelIdeal.Gen Cert.KernelIdeal.PayIdeal Cert.Spec

variable (X : FVec Ideal S4096x128 .f32) (B : FVec Ideal S4096x4096 .f32) (W1 : FVec Ideal S128x64 .f32)
  (W2 : FVec Ideal S64x64 .f32) (W1P : FVec Ideal S128x128 .f32) (W2P : FVec Ideal S64x72 .f32)
  (hW1 : ∀ (k : Fin 128) (c : Fin 64), W1P (ix2 k ⟨c.val, by have := c.isLt; omega⟩) = W1 (ix2 k c))
  (hW2 : ∀ (k : Fin 64) (c : Fin 64), W2P (ix2 k ⟨c.val, by have := c.isLt; omega⟩) = W2 (ix2 k c))
  (blk : Fin 8 → FVec Ideal S512x4096 .f32)
  (hblk : ∀ (i : Fin 8) (r : Fin 512) (f : Fin 4096), blk i (ix2 r f) = B (ix2 (rowOf i r) f))

include hW1 in
/-- The augmented message matrix in a column below 64: the face's message. -/
theorem m1e_msg (f : Fin 4096) (k : Fin 64) :
    k0_pay1 (F := Ideal) X W1P (ix2 f ⟨k.val, by have := k.isLt; omega⟩) = msg1 X W1 f k := by
  rw [pay1_apply, if_neg (by have := k.isLt; show ¬k.val = 64; omega)]
  unfold msg1
  exact Finset.sum_congr rfl fun j _ => by rw [hW1]

/-- The augmented message matrix in column 64: one. -/
theorem m1e_one (f : Fin 4096) : k0_pay1 (F := Ideal) X W1P (ix2 f ⟨64, by decide⟩) = 1 := by
  rw [pay1_apply, if_pos rfl, Ideal.ofBits_one_f32]

include hW1 hblk in
/-- A block's row against a message column: the messages aggregated on that edge. -/
theorem rowAgg_msg (i : Fin 8) (r : Fin 512) (k : Fin 64) :
    rowAgg (blk i) (k0_pay1 (F := Ideal) X W1P) r ⟨k.val, by have := k.isLt; omega⟩ = agg1 X B W1 (rowOf i r) k := by
  unfold rowAgg agg1
  exact Finset.sum_congr rfl fun f _ => by rw [hblk, m1e_msg X W1 W1P hW1]

include hblk in
/-- A block's row against the column of ones: the row's sum. -/
theorem rowAgg_one (i : Fin 8) (r : Fin 512) :
    rowAgg (blk i) (k0_pay1 (F := Ideal) X W1P) r ⟨64, by decide⟩ = rowSum B (rowOf i r) := by
  unfold rowAgg rowSum
  exact Finset.sum_congr rfl fun f _ => by rw [hblk, m1e_one, mul_one]

include hW1 hblk in
/-- The block's new features are the specification's, at the block's edges. -/
theorem blkFeat_eq (i : Fin 8) (r : Fin 512) (k : Fin 64) :
    blkFeat (blk i) (k0_pay1 (F := Ideal) X W1P) r k = feat1 X B W1 (rowOf i r) k := by
  unfold blkFeat feat1
  rw [rowAgg_msg X B W1 W1P hW1 blk hblk, rowAgg_one X B W1P blk hblk, Ideal.ofBits_one_f32, mul_comm]

include hW1 hW2 hblk in
/-- The block's augmented second messages in a column below 64: the edge's message. -/
theorem blkMsg_msg (i : Fin 8) (r : Fin 512) (c : Fin 64) :
    blkMsg (blk i) (k0_pay1 (F := Ideal) X W1P) W2P r ⟨c.val, by have := c.isLt; omega⟩
      = msg2 X B W1 W2 (rowOf i r) c := by
  unfold blkMsg msg2
  rw [if_neg (by have := c.isLt; show ¬c.val = 64; omega)]
  exact Finset.sum_congr rfl fun k _ => by rw [blkFeat_eq X B W1 W1P hW1 blk hblk, hW2]

/-- The block's augmented second messages in column 64: one. -/
theorem blkMsg_one (i : Fin 8) (r : Fin 512) :
    blkMsg (blk i) (k0_pay1 (F := Ideal) X W1P) W2P r ⟨64, by decide⟩ = 1 := by
  unfold blkMsg
  rw [if_pos rfl, Ideal.ofBits_one_f32]

/-- The accumulator after the last block. -/
def total : FVec Ideal S72x4096 .f32 := fun y => ∑ i : Fin 8, k0_pay2 (F := Ideal) (blk i) (k0_pay1 (F := Ideal) X W1P) W2P y

include hW1 hW2 hblk in
/-- Row `c < 64` of the accumulator: the edges' messages aggregated on the face. -/
theorem total_msg (c : Fin 64) (f : Fin 4096) :
    total X W1P W2P blk (ix2 ⟨c.val, by have := c.isLt; omega⟩ f) = agg2 X B W1 W2 f c := by
  unfold total agg2
  rw [← sum_rows_by_blocks (fun e => B (ix2 e f) * msg2 X B W1 W2 e c)]
  refine Finset.sum_congr rfl fun i _ => ?_
  rw [pay2_apply]
  exact Finset.sum_congr rfl fun r _ => by rw [blkMsg_msg X B W1 W2 W1P W2P hW1 hW2 blk hblk, hblk, mul_comm]

include hblk in
/-- Row 64 of the accumulator: the column's sum. -/
theorem total_one (f : Fin 4096) : total X W1P W2P blk (ix2 ⟨64, by decide⟩ f) = colSum B f := by
  unfold total colSum
  rw [← sum_rows_by_blocks (fun e => B (ix2 e f))]
  refine Finset.sum_congr rfl fun i _ => ?_
  rw [pay2_apply]
  exact Finset.sum_congr rfl fun r _ => by rw [blkMsg_one, hblk, one_mul]

include hW1 hW2 hblk in
/-- The last step applied to that accumulator is the specification's result. -/
theorem result_eq_spec : k0_pay5 (F := Ideal) (total X W1P W2P blk) = G X B W1 W2 := by
  funext j
  obtain ⟨f, c, rfl⟩ : ∃ (f : Fin 4096) (c : Fin 64), j = ix2 f c := ⟨j 0, j 1, eq_ix2 j⟩
  rw [pay5_apply, total_msg X B W1 W2 W1P W2P hW1 hW2 blk hblk, total_one X B W1P W2P blk hblk, Ideal.ofBits_one_f32, mul_comm]
  rfl

end Cert.KernelIdeal.KernelSpec

end
-- ==== Proof.KernelValue.lean ====
/-
  What the kernel's result array holds after the run.

  The body runs at eight grid points, one per block of 512 rows of the incidence matrix. Two scratch buffers are
  carried from point to point: the augmented first message matrix, stored at the first point and only read afterwards,
  and the accumulator, stored whole at the first point and added to at every later one. So after point n the first
  holds what the first point stored and the second the sum of the contributions of blocks 0 … n — by induction on the
  point. The output block is the whole result array; it is stored and written back at the last point only, from the
  accumulator as that point has just updated it.
  The windows of the features and of the two padded weights are whole arrays; the incidence window at point t is rows
  512·t … 512·t + 511. The padded weights are written by the host before the launch and agree with the weights on
  their first 64 columns.
-/
import proofs.«130470_g4337916969171_cont_sun_c4_63_30_alg».proof.Proof.Gen.KernelIdeal.Value
import proofs.«130470_g4337916969171_cont_sun_c4_63_30_alg».proof.Proof.Pieces
import proofs.«130470_g4337916969171_cont_sun_c4_63_30_alg».proof.Proof.PayIdeal
import proofs.«130470_g4337916969171_cont_sun_c4_63_30_alg».proof.Proof.KernelSpec
import Idealize.ShloMosaic.Lib.Pipeline.Value
import Idealize.ShloMosaic.Lib.KernelVsHost
import Idealize.ShloMosaic.Lib.StableHlo.Run
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.KValue

open Cert.KernelIdeal Cert.KernelIdeal.Gen Cert.KernelIdeal.Value

variable (m : (ℓ : Loc nD τ sig) → Buf (Elt Ideal) ℓ) (ρ : Dev nD → PrngReg)

/-! ## One point, case by case -/

/-- The first point: both scratch buffers are stored. -/
theorem step_first (c : Dev nD) (t : Fin cfg0.N) (h0 : t.val % 8 = 0) (h1 : t.val % 8 = 0) (h2 : ¬1 ≤ t.val) (h3 : ¬t.val % 8 = 7) :
    (outsAt0 m c t.val t.isLt).2.1 = k0_pay1 (iblk m c 0 t) (iblk m c 1 t)
    ∧ (outsAt0 m c t.val t.isLt).2.2 = k0_pay3 (iblk m c 3 t) (k0_pay1 (iblk m c 0 t) (iblk m c 1 t)) (iblk m c 2 t) := by
  rw [outsAt0_A m c t h0 h1 h2 h3]
  dsimp only
  exact ⟨Pieces.scratch0_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t),
    Pieces.scratch1_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t)⟩

/-- A middle point: the message matrix is kept, the accumulator added to. -/
theorem step_middle (c : Dev nD) (t : Fin cfg0.N) (h0 : ¬t.val % 8 = 0) (h1 : ¬t.val % 8 = 0) (h2 : 1 ≤ t.val) (h3 : ¬t.val % 8 = 7) :
    (outsAt0 m c t.val t.isLt).2.1 = (outsAt0 m c (t.val - 1) (Nat.lt_of_le_of_lt (Nat.sub_le _ _) t.isLt)).2.1
    ∧ (outsAt0 m c t.val t.isLt).2.2 = k0_pay4 (iblk m c 3 t) (outsAt0 m c (t.val - 1) (Nat.lt_of_le_of_lt (Nat.sub_le _ _) t.isLt)).2.1 (iblk m c 2 t) (outsAt0 m c (t.val - 1) (Nat.lt_of_le_of_lt (Nat.sub_le _ _) t.isLt)).2.2 := by
  rw [outsAt0_B m c t h0 h1 h2 h3]
  dsimp only
  exact ⟨rfl, Pieces.scratch1_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2⟩

/-- The last point: the same, and the output block is stored from the accumulator as just updated. -/
theorem step_last (c : Dev nD) (t : Fin cfg0.N) (h0 : ¬t.val % 8 = 0) (h1 : ¬t.val % 8 = 0) (h2 : 1 ≤ t.val) (h3 : t.val % 8 = 7) :
    (outsAt0 m c t.val t.isLt).1 = k0_pay5 (k0_pay4 (iblk m c 3 t) (outsAt0 m c (t.val - 1) (Nat.lt_of_le_of_lt (Nat.sub_le _ _) t.isLt)).2.1 (iblk m c 2 t) (outsAt0 m c (t.val - 1) (Nat.lt_of_le_of_lt (Nat.sub_le _ _) t.isLt)).2.2)
    ∧ (outsAt0 m c t.val t.isLt).2.1 = (outsAt0 m c (t.val - 1) (Nat.lt_of_le_of_lt (Nat.sub_le _ _) t.isLt)).2.1
    ∧ (outsAt0 m c t.val t.isLt).2.2 = k0_pay4 (iblk m c 3 t) (outsAt0 m c (t.val - 1) (Nat.lt_of_le_of_lt (Nat.sub_le _ _) t.isLt)).2.1 (iblk m c 2 t) (outsAt0 m c (t.val - 1) (Nat.lt_of_le_of_lt (Nat.sub_le _ _) t.isLt)).2.2 := by
  rw [outsAt0_C m c t h0 h1 h2 h3]
  dsimp only
  exact ⟨Pieces.out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, rfl,
    Pieces.scratch1_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2⟩

/-! ## The carried buffers after every point -/

/-- The first grid point. -/
abbrev p0 : Fin cfg0.N := ⟨0, by rw [show cfg0.N = 8 from N_0]; decide⟩

/-- The augmented first message matrix, as the first point stores it. -/
def m1e (c : Dev nD) : Vec Ideal S4096x128 .bf16 := k0_pay1 (iblk m c 0 p0) (iblk m c 1 p0)

/-- The contribution of the block at point `n` to the accumulator (zero past the grid, where it is never used). -/
def contribAt (c : Dev nD) (n : ℕ) : Vec Ideal S72x4096 .f32 :=
  if hn : n < cfg0.N then k0_pay2 (iblk m c 3 ⟨n, hn⟩) (m1e m c) (iblk m c 2 ⟨n, hn⟩) else fun _ => (0 : EReal)

theorem contribAt_pos (c : Dev nD) (n : ℕ) (hn : n < cfg0.N) (y : S72x4096.Idx) :
    contribAt m c n y = k0_pay2 (F := Ideal) (iblk m c 3 ⟨n, hn⟩) (m1e m c) (iblk m c 2 ⟨n, hn⟩) y := by
  unfold contribAt
  rw [dif_pos hn]

/-- After point `n` the first scratch buffer holds the message matrix of the first point and the second the sum of the
    contributions of points `0 … n`. -/
theorem carried (c : Dev nD) : ∀ (n : ℕ) (hn : n < cfg0.N),
    (outsAt0 m c n hn).2.1 = m1e m c
    ∧ (outsAt0 m c n hn).2.2 = fun y => ∑ i ∈ Finset.range (n + 1), contribAt m c i y
  | 0, hn => by
    obtain ⟨e1, e2⟩ := step_first m c ⟨0, hn⟩ (Nat.zero_mod 8) (Nat.zero_mod 8) (by show ¬1 ≤ 0; decide) (by show ¬0 % 8 = 7; decide)
    refine ⟨e1, e2.trans (funext fun y => ?_)⟩
    rw [Finset.sum_range_one]
    exact (congrFun (PayIdeal.pay3_eq (iblk m c 3 ⟨0, hn⟩) (m1e m c) (iblk m c 2 ⟨0, hn⟩)) y).trans
      (contribAt_pos m c 0 hn y).symm
  | n + 1, hn => by
    have hN : cfg0.N = 8 := N_0
    have hn8 : n + 1 < 8 := lt_of_lt_of_eq hn hN
    have hn' : n < cfg0.N := Nat.lt_of_succ_lt hn
    obtain ⟨ih1, ih2⟩ := carried c n hn'
    have hstep : (outsAt0 m c (n + 1) hn).2.1 = (outsAt0 m c n hn').2.1
        ∧ (outsAt0 m c (n + 1) hn).2.2
          = k0_pay4 (iblk m c 3 ⟨n + 1, hn⟩) (outsAt0 m c n hn').2.1 (iblk m c 2 ⟨n + 1, hn⟩) (outsAt0 m c n hn').2.2 := by
      by_cases h3 : (n + 1) % 8 = 7
      · exact (step_last m c ⟨n + 1, hn⟩ (by show ¬(n + 1) % 8 = 0; omega) (by show ¬(n + 1) % 8 = 0; omega)
          (by show 1 ≤ n + 1; omega) h3).2
      · exact step_middle m c ⟨n + 1, hn⟩ (by show ¬(n + 1) % 8 = 0; omega) (by show ¬(n + 1) % 8 = 0; omega)
          (by show 1 ≤ n + 1; omega) h3
    obtain ⟨s1, s2⟩ := hstep
    refine ⟨s1.trans ih1, s2.trans (funext fun y => ?_)⟩
    rw [Finset.sum_range_succ]
    refine (PayIdeal.pay4_apply (iblk m c 3 ⟨n + 1, hn⟩) (outsAt0 m c n hn').2.1 (iblk m c 2 ⟨n + 1, hn⟩)
      (outsAt0 m c n hn').2.2 y).trans ?_
    rw [ih2, ih1]
    exact congrArg (_ + ·) (contribAt_pos m c (n + 1) hn y).symm

/-- The last grid point. -/
abbrev p7 : Fin cfg0.N := ⟨7, by rw [show cfg0.N = 8 from N_0]; decide⟩

/-- The accumulator after the last point: the sum of all eight contributions. -/
def acc (c : Dev nD) : Vec Ideal S72x4096 .f32 := fun y => ∑ i ∈ Finset.range 8, contribAt m c i y

/-- What the result array holds after the run: the last step applied to the full accumulator. -/
def result (c : Dev nD) : Buf (Elt Ideal) ((c : Thread nD τ).loc main_v2) := k0_pay5 (F := Ideal) (acc m c)

/-- The output block after the last point. -/
theorem out_last (c : Dev nD) : (outsAt0 m c p7.val p7.isLt).1 = result m c := by
  obtain ⟨o, -, s2⟩ := step_last m c p7 (by decide) (by decide) (by decide) (by decide)
  exact o.trans (congrArg (k0_pay5 (F := Ideal)) (s2.symm.trans (carried m c 7 p7.isLt).2))

/-! ## The windows' blocks -/

theorem idx0 (t : Fin cfg0.N) : win0_0.index t 0 = 0 ∧ win0_0.index t 1 = 0 := by
  rcases fin_N0 t with rfl | rfl | rfl | rfl | rfl | rfl | rfl | rfl <;> decide
theorem idx1 (t : Fin cfg0.N) : win0_1.index t 0 = 0 ∧ win0_1.index t 1 = 0 := by
  rcases fin_N0 t with rfl | rfl | rfl | rfl | rfl | rfl | rfl | rfl <;> decide
theorem idx2 (t : Fin cfg0.N) : win0_2.index t 0 = 0 ∧ win0_2.index t 1 = 0 := by
  rcases fin_N0 t with rfl | rfl | rfl | rfl | rfl | rfl | rfl | rfl <;> decide
theorem idx3 (t : Fin cfg0.N) : win0_3.index t 0 = t.val ∧ win0_3.index t 1 = 0 := by
  rcases fin_N0 t with rfl | rfl | rfl | rfl | rfl | rfl | rfl | rfl <;> decide

/-- The features' window is the whole array at every point. -/
theorem blk0 (c : Dev nD) (t : Fin cfg0.N) : (iblk m c 0 t : Vec Ideal S4096x128 .f32) = V m c main_arg0 := by
  have hi := idx0 t
  funext j
  unfold iblk
  rw [View.read_apply]
  show V m c main_arg0 _ = V m c main_arg0 j
  congr 1
  funext a
  apply Fin.ext
  match a with
  | ⟨0, _⟩ => show win0_0.index t 0 * 4096 + 1 * (j 0).val = (j 0).val; rw [hi.1]; omega
  | ⟨1, _⟩ => show win0_0.index t 1 * 128 + 1 * (j 1).val = (j 1).val; rw [hi.2]; omega

/-- The padded first weight's window is the whole array at every point. -/
theorem blk1 (c : Dev nD) (t : Fin cfg0.N) : (iblk m c 1 t : Vec Ideal S128x128 .f32) = V m c main_v0 := by
  have hi := idx1 t
  funext j
  unfold iblk
  rw [View.read_apply]
  show V m c main_v0 _ = V m c main_v0 j
  congr 1
  funext a
  apply Fin.ext
  match a with
  | ⟨0, _⟩ => show win0_1.index t 0 * 128 + 1 * (j 0).val = (j 0).val; rw [hi.1]; omega
  | ⟨1, _⟩ => show win0_1.index t 1 * 128 + 1 * (j 1).val = (j 1).val; rw [hi.2]; omega

/-- The padded second weight's window is the whole array at every point. -/
theorem blk2 (c : Dev nD) (t : Fin cfg0.N) : (iblk m c 2 t : Vec Ideal S64x72 .f32) = V m c main_v1 := by
  have hi := idx2 t
  funext j
  unfold iblk
  rw [View.read_apply]
  show V m c main_v1 _ = V m c main_v1 j
  congr 1
  funext a
  apply Fin.ext
  match a with
  | ⟨0, _⟩ => show win0_2.index t 0 * 64 + 1 * (j 0).val = (j 0).val; rw [hi.1]; omega
  | ⟨1, _⟩ => show win0_2.index t 1 * 72 + 1 * (j 1).val = (j 1).val; rw [hi.2]; omega

/-- The incidence window at point `t` is rows `512·t … 512·t + 511`. -/
theorem blk3 (c : Dev nD) (t : Fin cfg0.N) (r : Fin 512) (f : Fin 4096) (e : Fin 4096) (he : e.val = 512 * t.val + r.val) :
    (iblk m c 3 t : Vec Ideal S512x4096 .f32) (ix2 r f) = V m c main_arg1 (ix2 e f) := by
  have hi := idx3 t
  unfold iblk
  rw [View.read_apply]
  show V m c main_arg1 _ = V m c main_arg1 _
  congr 1
  funext a
  apply Fin.ext
  match a with
  | ⟨0, _⟩ => show win0_3.index t 0 * 512 + 1 * r.val = e.val; rw [hi.1]; omega
  | ⟨1, _⟩ => show win0_3.index t 1 * 4096 + 1 * f.val = f.val; rw [hi.2]; omega

/-! ## The padded weights -/

/-- The first weight padded to 128 columns, as the host writes it before the launch. -/
theorem w1p_eq (c : Dev nD) : V m c main_v0 = pad S128x128 ![0, 0] ![0, 64] ![0, 0] (m ((c : Thread nD τ).loc main_arg2))
      (sitofp (F := Ideal) .f32 (constantI S_ 32 0#32)) pads_S128x64_S128x128_000_0640 h_S_ := by
  dsimp only [V]
  simp only [hostOps0, hostOps0_1, hostOps0_2, hostOps0_3, List.flatten_cons, List.flatten_nil, List.append_nil,
    List.cons_append, List.nil_append]
  after_results
  rfl

/-- The second weight padded to 72 columns, as the host writes it before the launch. -/
theorem w2p_eq (c : Dev nD) : V m c main_v1 = pad S64x72 ![0, 0] ![0, 8] ![0, 0] (m ((c : Thread nD τ).loc main_arg3))
      (sitofp (F := Ideal) .f32 (constantI S_ 32 0#32)) pads_S64x64_S64x72_000_080 h_S_ := by
  dsimp only [V]
  simp only [hostOps0, hostOps0_1, hostOps0_2, hostOps0_3, List.flatten_cons, List.flatten_nil, List.append_nil,
    List.cons_append, List.nil_append]
  after_results
  rfl

/-- In its first 64 columns the padded first weight is the weight. -/
theorem w1p_at (c : Dev nD) (k : Fin 128) (q : Fin 64) :
    V m c main_v0 (ix2 k ⟨q.val, by have := q.isLt; omega⟩) = (m ((c : Thread nD τ).loc main_arg2)) (ix2 k q) := by
  rw [w1p_eq]
  exact pad_apply_of_inside _ _ _ _ _ pads_S128x64_S128x128_000_0640 h_S_ (ix2 k ⟨q.val, by have := q.isLt; omega⟩) (ix2 k q)
    (fun a => by
      match a with
      | ⟨0, _⟩ => show k.val = 0 + k.val * (0 + 1); omega
      | ⟨1, _⟩ => show q.val = 0 + q.val * (0 + 1); omega)

/-- In its first 64 columns the padded second weight is the weight. -/
theorem w2p_at (c : Dev nD) (k : Fin 64) (q : Fin 64) :
    V m c main_v1 (ix2 k ⟨q.val, by have := q.isLt; omega⟩) = (m ((c : Thread nD τ).loc main_arg3)) (ix2 k q) := by
  rw [w2p_eq]
  exact pad_apply_of_inside _ _ _ _ _ pads_S64x64_S64x72_000_080 h_S_ (ix2 k ⟨q.val, by have := q.isLt; omega⟩) (ix2 k q)
    (fun a => by
      match a with
      | ⟨0, _⟩ => show k.val = 0 + k.val * (0 + 1); omega
      | ⟨1, _⟩ => show q.val = 0 + q.val * (0 + 1); omega)

/-! ## The result array -/

/-- The one write-back, at the last point, writes the result: the output's block is the whole array. -/
theorem flushed_eq (c : Dev nD) (t : Fin cfg0.N) (hf : (cfg0.win 4).flush t = true) :
    (dats m 0 c).flushed 4 t = ((cfg0.win 4).blk t).view.read (Elt Ideal) (result m c) := by
  have hN : cfg0.N = 8 := N_0
  have h7 : t.val = 7 := by have := (flush0_4 t).mp hf; have := lt_of_lt_of_eq t.isLt hN; omega
  obtain rfl : t = p7 := Fin.ext h7
  rw [flushed4, out_last]
  have hz' : (fun a => win0_4.index p7 a * main_v2.ty.shape.size a) = fun _ => 0 := funext fun a => by fin_cases a <;> decide
  exact (Memref.read_access_unit_zero (Elt Ideal) main_v2 hz' (fun a => by rw [congrFun hz' a]; simp) (result m c)).symm

/-- So the result array ends holding it: the last point's block covers every index. -/
theorem final (c : Dev nD) : (dats m 0 c).arrAt 4 cfg0.N = result m c :=
  (dats m 0 c).arrAt_eq_of_cover 4 (result m c) (flushed_eq m c) fun i =>
    ⟨p7, (flush0_4 p7).mpr rfl, by
      show i ∈ ((View.whole main_v2).slice (win0_4.rect p7)).set
      rw [View.set_slice_whole, Rect.mem_set_unit]
      intro a
      have h0 : (i 0 : Nat) < 4096 := (i 0).isLt
      have h1 : (i 1 : Nat) < 64 := (i 1).isLt
      match a with
      | ⟨0, _⟩ => show win0_4.index p7 0 * win0_4.size 0 ≤ (i 0 : Nat) ∧ (i 0 : Nat) < win0_4.index p7 0 * win0_4.size 0 + win0_4.xsize (grid0.coords p7) 0
                  rw [show win0_4.index p7 0 * win0_4.size 0 = 0 from by decide +kernel, show win0_4.xsize (grid0.coords p7) 0 = 4096 from by decide +kernel]; omega
      | ⟨1, _⟩ => show win0_4.index p7 1 * win0_4.size 1 ≤ (i 1 : Nat) ∧ (i 1 : Nat) < win0_4.index p7 1 * win0_4.size 1 + win0_4.xsize (grid0.coords p7) 1
                  rw [show win0_4.index p7 1 * win0_4.size 1 = 0 from by decide +kernel, show win0_4.xsize (grid0.coords p7) 1 = 64 from by decide +kernel]; omega⟩

/-- The run, read: the result array at `result`, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

/-- The result is the specification of the argument arrays. -/
theorem result_eq (c : Dev nD) :
    result m c = Cert.Spec.G (m ((c : Thread nD τ).loc main_arg0)) (m ((c : Thread nD τ).loc main_arg1)) (m ((c : Thread nD τ).loc main_arg2)) (m ((c : Thread nD τ).loc main_arg3)) := by
  have hN : cfg0.N = 8 := N_0
  have hlt : ∀ i : Fin 8, i.val < cfg0.N := fun i => by rw [hN]; exact i.isLt
  have e : acc m c = KernelSpec.total (m ((c : Thread nD τ).loc main_arg0)) (V m c main_v0) (V m c main_v1)
      (fun i => iblk m c 3 ⟨i.val, hlt i⟩) := by
    funext y
    unfold acc KernelSpec.total
    rw [← Fin.sum_univ_eq_sum_range (fun i => contribAt m c i y) 8]
    refine Finset.sum_congr rfl fun i _ => ?_
    show contribAt m c i.val y = _
    rw [contribAt_pos m c i.val (hlt i) y]
    unfold m1e
    rw [blk0, blk1, blk2, V_main_arg0]
  unfold result
  rw [e]
  exact KernelSpec.result_eq_spec (m ((c : Thread nD τ).loc main_arg0)) (m ((c : Thread nD τ).loc main_arg1)) (m ((c : Thread nD τ).loc main_arg2)) (m ((c : Thread nD τ).loc main_arg3))
    (V m c main_v0) (V m c main_v1) (fun k q => w1p_at m c k q) (fun k q => w2p_at m c k q)
    (fun i => iblk m c 3 ⟨i.val, hlt i⟩)
    (fun i r f => (blk3 m c ⟨i.val, hlt i⟩ r f (Cert.Spec.rowOf i r) rfl).trans (congrFun (V_main_arg1 m c) _))

end Cert.KernelIdeal.KValue

end
-- ==== Proof.RefSpec.lean ====
/-
  The reference computes the specification: its operations, read one at a time at an index, are the specification's
  sums, quotients and squashings. The reference's σ is spelt out, 1 / (1 + e^(-x)), its normalizer is a host sum
  started from zero, and its second aggregation goes through the explicit transpose of the incidence matrix, read
  here at (f, e) as the matrix at (e, f).
-/
import proofs.«130470_g4337916969171_cont_sun_c4_63_30_alg».proof.Proof.Gen.ReferenceIdeal.Read
import proofs.«130470_g4337916969171_cont_sun_c4_63_30_alg».proof.Proof.Spec
import Idealize.ShloMosaic.Lib.IdealHost

noncomputable section

open Idealize.ShloMosaic Idealize.ShloMosaic.ValueIdx

namespace Cert.ReferenceIdeal.RefSpec

open Cert.ReferenceIdeal Cert.ReferenceIdeal.Read

variable (x0 : FVec Ideal S4096x128 .f32) (x1 : FVec Ideal S4096x4096 .f32) (x2 : FVec Ideal S128x64 .f32)
  (x3 : FVec Ideal S64x64 .f32)

/-- σ as the reference spells it, with its two constants read as the real one. -/
theorem sigma_spelt (t : EReal) :
    FloatOps.hostDivf (F := Ideal) (φ := .f32) (FloatOps.ofBits .f32 0x3F800000#32)
        (FloatOps.addf (FloatOps.ofBits .f32 0x3F800000#32) (FloatOps.hostUnary .exp (FloatOps.hostNegf t)))
      = Ideal.logistic t := by
  show Ideal.div (Ideal.ofBits .f32 0x3F800000#32) (Ideal.ofBits .f32 0x3F800000#32 + Ideal.exp (-t)) = _
  rw [Ideal.ofBits_one_f32]
  rfl

/-- The reciprocal as the reference spells it. -/
theorem recip_spelt (t : EReal) :
    FloatOps.hostDivf (F := Ideal) (φ := .f32) (FloatOps.ofBits .f32 0x3F800000#32) t = Ideal.div 1 t := by
  show Ideal.div (Ideal.ofBits .f32 0x3F800000#32) t = _
  rw [Ideal.ofBits_one_f32]

theorem v1_at (f : Fin 4096) (c : Fin 64) : val_main_v1 (F := Ideal) x0 x2 (ix2 f c) = Cert.Spec.msg1 x0 x2 f c := by
  rw [val_main_v1_apply]
  unfold Cert.Spec.msg1
  refine Finset.sum_congr rfl fun k _ => ?_
  have el : lidx_main_v1 (ix2 f c) k = ix2 f k := funext fun a => by match a with | ⟨0, _⟩ => rfl | ⟨1, _⟩ => rfl
  have er : ridx_main_v1 (ix2 f c) k = ix2 k c := funext fun a => by match a with | ⟨0, _⟩ => rfl | ⟨1, _⟩ => rfl
  rw [el, er]

theorem v2_at (e : Fin 4096) (c : Fin 64) :
    val_main_v2 (F := Ideal) x0 x1 x2 (ix2 e c) = Cert.Spec.agg1 x0 x1 x2 e c := by
  rw [val_main_v2_apply]
  unfold Cert.Spec.agg1
  refine Finset.sum_congr rfl fun k _ => ?_
  have el : lidx_main_v2 (ix2 e c) k = ix2 e k := funext fun a => by match a with | ⟨0, _⟩ => rfl | ⟨1, _⟩ => rfl
  have er : ridx_main_v2 (ix2 e c) k = ix2 k c := funext fun a => by match a with | ⟨0, _⟩ => rfl | ⟨1, _⟩ => rfl
  rw [el, er, v1_at]

theorem v3_at (e : Fin 4096) : val_main_v3 (F := Ideal) x1 (ix1 e) = Cert.Spec.rowSum x1 e := by
  rw [val_main_v3_apply, val_main_cst_apply]
  show Ideal.ofBits .f32 0x00000000#32 + _ = _
  rw [Ideal.ofBits_zero_f32, zero_add]
  unfold Cert.Spec.rowSum
  refine Finset.sum_congr rfl fun k _ => ?_
  have ei : idx_main_v3 (ix1 e) k = ix2 e k := funext fun a => by match a with | ⟨0, _⟩ => rfl | ⟨1, _⟩ => rfl
  rw [ei]

theorem v7_at (e : Fin 4096) (c : Fin 64) :
    val_main_v7 (F := Ideal) x1 (ix2 e c) = Ideal.div 1 (Cert.Spec.rowSum x1 e) := by
  rw [val_main_v7_apply, val_main_v6_apply, val_main_v5_apply, val_main_v4_apply, val_main_cst_0_apply]
  have ei : idx_main_v6 (idx_main_v7 (ix2 e c)) = ix1 e := funext fun a => by match a with | ⟨0, _⟩ => rfl
  rw [ei, v3_at, recip_spelt]

theorem v14_at (e : Fin 4096) (c : Fin 64) :
    val_main_v14 (F := Ideal) x0 x1 x2 (ix2 e c) = Cert.Spec.feat1 x0 x1 x2 e c := by
  rw [val_main_v14_apply, val_main_v13_apply, val_main_cst_2_apply, val_main_v12_apply, val_main_v11_apply,
    val_main_cst_1_apply, val_main_v10_apply, val_main_v9_apply, sigma_spelt, val_main_v8_apply, v7_at, v2_at]
  rfl

theorem v15_at (e : Fin 4096) (c : Fin 64) :
    val_main_v15 (F := Ideal) x0 x1 x2 x3 (ix2 e c) = Cert.Spec.msg2 x0 x1 x2 x3 e c := by
  rw [val_main_v15_apply]
  unfold Cert.Spec.msg2
  refine Finset.sum_congr rfl fun k _ => ?_
  have el : lidx_main_v15 (ix2 e c) k = ix2 e k := funext fun a => by match a with | ⟨0, _⟩ => rfl | ⟨1, _⟩ => rfl
  have er : ridx_main_v15 (ix2 e c) k = ix2 k c := funext fun a => by match a with | ⟨0, _⟩ => rfl | ⟨1, _⟩ => rfl
  rw [el, er, v14_at]

/-- The transposed incidence matrix at `(f, e)` is the matrix at `(e, f)`. -/
theorem v0_at (f e : Fin 4096) : val_main_v0 (F := Ideal) x1 (ix2 f e) = x1 (ix2 e f) := by
  rw [val_main_v0_apply]
  have ei : idx_main_v0 (ix2 f e) = ix2 e f := funext fun a => by match a with | ⟨0, _⟩ => rfl | ⟨1, _⟩ => rfl
  rw [ei]

theorem v16_at (f : Fin 4096) (c : Fin 64) :
    val_main_v16 (F := Ideal) x0 x1 x2 x3 (ix2 f c) = Cert.Spec.agg2 x0 x1 x2 x3 f c := by
  rw [val_main_v16_apply]
  unfold Cert.Spec.agg2
  refine Finset.sum_congr rfl fun k _ => ?_
  have el : lidx_main_v16 (ix2 f c) k = ix2 f k := funext fun a => by match a with | ⟨0, _⟩ => rfl | ⟨1, _⟩ => rfl
  have er : ridx_main_v16 (ix2 f c) k = ix2 k c := funext fun a => by match a with | ⟨0, _⟩ => rfl | ⟨1, _⟩ => rfl
  rw [el, er, v0_at, v15_at]

theorem v17_at (f : Fin 4096) : val_main_v17 (F := Ideal) x1 (ix1 f) = Cert.Spec.colSum x1 f := by
  rw [val_main_v17_apply, val_main_cst_3_apply]
  show Ideal.ofBits .f32 0x00000000#32 + _ = _
  rw [Ideal.ofBits_zero_f32, zero_add]
  unfold Cert.Spec.colSum
  refine Finset.sum_congr rfl fun k _ => ?_
  have ei : idx_main_v17 (ix1 f) k = ix2 f k := funext fun a => by match a with | ⟨0, _⟩ => rfl | ⟨1, _⟩ => rfl
  rw [ei, v0_at]

theorem v21_at (f : Fin 4096) (c : Fin 64) :
    val_main_v21 (F := Ideal) x1 (ix2 f c) = Ideal.div 1 (Cert.Spec.colSum x1 f) := by
  rw [val_main_v21_apply, val_main_v20_apply, val_main_v19_apply, val_main_v18_apply, val_main_cst_4_apply]
  have ei : idx_main_v20 (idx_main_v21 (ix2 f c)) = ix1 f := funext fun a => by match a with | ⟨0, _⟩ => rfl
  rw [ei, v17_at, recip_spelt]

theorem v28_at (f : Fin 4096) (c : Fin 64) :
    val_main_v28 (F := Ideal) x0 x1 x2 x3 (ix2 f c) = Cert.Spec.out x0 x1 x2 x3 f c := by
  rw [val_main_v28_apply, val_main_v27_apply, val_main_cst_6_apply, val_main_v26_apply, val_main_v25_apply,
    val_main_cst_5_apply, val_main_v24_apply, val_main_v23_apply, sigma_spelt, val_main_v22_apply, v21_at, v16_at]
  rfl

/-- The reference's result array is the specification's. -/
theorem ref_eq_spec : val_main_v28 (F := Ideal) x0 x1 x2 x3 = Cert.Spec.G x0 x1 x2 x3 := by
  funext i
  obtain ⟨f, c, rfl⟩ : ∃ (f : Fin 4096) (c : Fin 64), i = ix2 f c := ⟨i 0, i 1, eq_ix2 i⟩
  exact v28_at x0 x1 x2 x3 f c

end Cert.ReferenceIdeal.RefSpec

end
-- ==== Proof.lean ====
/-
  Two rounds of message passing over a dense incidence matrix B (4096 edges × 4096 faces), fused into one pass
  over B, against the plain two-step computation.

  The reference computes x₁ = σ((1 / rowsum B) · (B · (x₂ · W₁))) on the edges and then
  out = σ((1 / colsum B) · (Bᵀ · (x₁ · W₂))) on the faces, with σ x = 1 / (1 + e^(-x)).

  The kernel walks B once, in eight blocks of 512 rows. At the first block it forms x₂ · W₁ (W₁ padded with zero
  columns) and puts a one in column 64; each block times that matrix yields at once the block's aggregated messages
  and, in column 64, its row sums, hence the block's rows of x₁. Those, times W₂ (padded likewise) and again
  augmented with a one in column 64, are contracted with the block along its rows and added to an accumulator, whose
  row 64 thereby collects the column sums of B. After the last block the accumulator's first 64 rows are divided by
  its row 64, squashed and transposed.

  On the extended reals, where a change of float format is the identity and every operation exact, the two are the
  same function of the arguments, index by index: a product with a one is the other factor, a sum over the 4096 edges
  is the sum over the eight blocks of the sums over each block's rows, and a product commutes. None of this needs an
  entry to be finite, so the precondition is not opened. The idealization rewrote no operation of the kernel, so that
  conjunct is trivial; the three programs run and leave their arguments as they were by their frames.
-/
import proofs.«130470_g4337916969171_cont_sun_c4_63_30_alg».proof.Defs
import proofs.«130470_g4337916969171_cont_sun_c4_63_30_alg».proof.Proof.Gen.Kernel
import proofs.«130470_g4337916969171_cont_sun_c4_63_30_alg».proof.Proof.Gen.Kernel.Frame
import proofs.«130470_g4337916969171_cont_sun_c4_63_30_alg».proof.Proof.Gen.KernelIdeal
import proofs.«130470_g4337916969171_cont_sun_c4_63_30_alg».proof.Proof.Gen.KernelIdeal.Frame
import proofs.«130470_g4337916969171_cont_sun_c4_63_30_alg».proof.Proof.Gen.KernelIdeal.Value
import proofs.«130470_g4337916969171_cont_sun_c4_63_30_alg».proof.Proof.Gen.ReferenceIdeal
import proofs.«130470_g4337916969171_cont_sun_c4_63_30_alg».proof.Proof.Gen.ReferenceIdeal.Run
import proofs.«130470_g4337916969171_cont_sun_c4_63_30_alg».proof.Proof.Gen.ReferenceIdeal.Read
import proofs.«130470_g4337916969171_cont_sun_c4_63_30_alg».proof.Proof.Gen.Pre_finite_inputs
import proofs.«130470_g4337916969171_cont_sun_c4_63_30_alg».proof.Proof.KernelValue
import proofs.«130470_g4337916969171_cont_sun_c4_63_30_alg».proof.Proof.RefSpec
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the specification of the argument arrays in the result: the kernel's by the induction over its
    grid points and the arithmetic of its body, the reference's operation by operation; the arguments agree. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefSpec.ref_eq_spec, (hagree c).1, (hagree c).2.1,
    (hagree c).2.2.1, (hagree c).2.2.2]
  exact (Cert.KernelIdeal.KValue.result_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
